-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x32x128 : Shape := ⟨3, ![50000, 32, 128]⟩
abbrev S128x128 : Shape := ⟨2, ![128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x32x128 : S_.BroadcastsInDim S50000x32x128 (![] : Fin 0 → Fin S50000x32x128.rank)
  reducesTo_S50000x32x128_S_d0_1_2 : S50000x32x128.ReducesTo [0, 1, 2] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S50000x128 .f32) (main_arg1 : FVec F S50000x32x128 .f32) (main_arg2 : FVec F S128x128 .f32) (main_arg3 : FVec F S128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x32x128 .f32 := Host.absf main_arg1
  let main_cst_0 : FVec F S_ .f32 := constant S_ .f32 0x7F800000#32
  let main_v5 : FVec F S50000x32x128 .f32 := broadcastInDim S50000x32x128 ![] bcast_S_S50000x32x128 main_cst_0
  let main_v6 : IVec S50000x32x128 1 := cmpf .olt main_v4 main_v5
  let main_c_1 : IVec S_ 1 := constantI S_ 1 1#1
  let main_v7 : IVec S_ 1 := (fun x v => Host.reduce IntOp.andi x v reducesTo_S50000x32x128_S_d0_1_2 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S50000x128 : Shape := ⟨2, ![50000, 128]⟩
abbrev S50000x32x128 : Shape := ⟨3, ![50000, 32, 128]⟩
abbrev S128x128 : Shape := ⟨2, ![128, 128]⟩
abbrev S256x128 : Shape := ⟨2, ![256, 128]⟩
abbrev S1000x128 : Shape := ⟨2, ![1000, 128]⟩
abbrev S1000x32x128 : Shape := ⟨3, ![1000, 32, 128]⟩
abbrev S1000x8x128 : Shape := ⟨3, ![1000, 8, 128]⟩
abbrev S1000x256 : Shape := ⟨2, ![1000, 256]⟩

abbrev nBuf : Space → Nat
  | .hbm => 9
  | .vmem => 7
  | .smem => 0
  | _ => 0

abbrev bufTy : (tb : Table) → Fin (tcTables nBuf tb) → BufTy
  | .hbm, ⟨0, _⟩ => ⟨S50000x128, .f32⟩
  | .hbm, ⟨1, _⟩ => ⟨S50000x32x128, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S256x128, .f32⟩
  | .hbm, ⟨7, _⟩ => ⟨S256x128, .bf16⟩
  | .hbm, ⟨8, _⟩ => ⟨S50000x128, .f32⟩
  | .local _ .vmem, ⟨0, _⟩ => ⟨S1000x128, .f32⟩
  | .local _ .vmem, ⟨1, _⟩ => ⟨S1000x128, .f32⟩
  | .local _ .vmem, ⟨2, _⟩ => ⟨S1000x32x128, .f32⟩
  | .local _ .vmem, ⟨3, _⟩ => ⟨S1000x32x128, .f32⟩
  | .local _ .vmem, ⟨4, _⟩ => ⟨S256x128, .bf16⟩
  | .local _ .vmem, ⟨5, _⟩ => ⟨S1000x128, .f32⟩
  | .local _ .vmem, ⟨6, _⟩ => ⟨S1000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S128x128_S128x128_1_0 : S128x128.Transposes [1, 0] S128x128
  concatenates_S128x128_S128x128_S256x128_d0 : Shape.Concatenates [S128x128, S128x128] S256x128 0
  bitsLt_bf16_f32 : FTy.bits .bf16 < FTy.bits .f32
  inb_S1000x32x128_S1000x8x128_0_0_0 : ∀ a, (![0, 0, 0] : Fin 3 → Nat) a + S1000x8x128.size a ≤ S1000x32x128.size a
  h_S1000x8x128 : 0 < S1000x8x128.numel
  reduces_S1000x8x128_S1000x128 : S1000x8x128.Reduces [1] S1000x128
  inb_S1000x32x128_S1000x8x128_0_8_0 : ∀ a, (![0, 8, 0] : Fin 3 → Nat) a + S1000x8x128.size a ≤ S1000x32x128.size a
  inb_S1000x32x128_S1000x8x128_0_16_0 : ∀ a, (![0, 16, 0] : Fin 3 → Nat) a + S1000x8x128.size a ≤ S1000x32x128.size a
  inb_S1000x32x128_S1000x8x128_0_24_0 : ∀ a, (![0, 24, 0] : Fin 3 → Nat) a + S1000x8x128.size a ≤ S1000x32x128.size a
  inb_S1000x128_S1000x128_0_0 : ∀ a, (![0, 0] : Fin 2 → Nat) a + S1000x128.size a ≤ S1000x128.size a
  h_S1000x128 : 0 < S1000x128.numel
  concatenates_S1000x128_S1000x128_S1000x256_d1 : Shape.Concatenates [S1000x128, S1000x128] S1000x256 1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  dot_S1000x256_S256x128_S1000x128_1_0_0_1_n_n_wf : DotDims.WF S1000x256 S256x128 S1000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S50000x128.size a
  hwx0_0 : ∀ i : grid0.Coords, EltTy.bits .f32 = 32 ∨ (Rect.block (s := S50000x128) S1000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x32x128.size a ≤ S50000x32x128.size a
  hwx0_1 : ∀ i : grid0.Coords, EltTy.bits .f32 = 32 ∨ (Rect.block (s := S50000x32x128) S1000x32x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .bf16 = 32 ∨ (Rect.block (s := S256x128) S256x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x128.size a ≤ S50000x128.size a
  hwx0_3 : ∀ i : grid0.Coords, EltTy.bits .f32 = 32 ∨ (Rect.block (s := S50000x128) S1000x128.size (cc0_transform_3 i) (hinb0_3 i)).WholeWords (EltTy.packing .f32)

variable [Facts₀]

def dot_S1000x256_S256x128_S1000x128_1_0_0_1_n_n : DotDims S1000x256 S256x128 S1000x128 where
  lhsContracting := [1]
  rhsContracting := [0]
  lhsNonContracting := [0]
  rhsNonContracting := [1]
  lhsBatch := []
  rhsBatch := []
  wf := dot_S1000x256_S256x128_S1000x128_1_0_0_1_n_n_wf

abbrev win0_0 : Pipeline.Window sig grid0 :=
  Pipeline.Window.ofSpec (Memref.whole main_arg0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1000x32x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x128 : Shape := ⟨2, ![50000, 128]⟩
abbrev S50000x32x128 : Shape := ⟨3, ![50000, 32, 128]⟩
abbrev S128x128 : Shape := ⟨2, ![128, 128]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x32x128, .f32⟩
  | .hbm, ⟨2, _⟩ => ⟨S128x128, .f32⟩
  | .hbm, ⟨3, _⟩ => ⟨S128x128, .f32⟩
  | .hbm, ⟨4, _⟩ => ⟨S_, .f32⟩
  | .hbm, ⟨5, _⟩ => ⟨S50000x128, .f32⟩
  | .hbm, ⟨6, _⟩ => ⟨S_, .f32⟩
  | .hbm, ⟨7, _⟩ => ⟨S50000x128, .f32⟩
  | .hbm, ⟨8, _⟩ => ⟨S50000x128, .f32⟩
  | .hbm, ⟨9, _⟩ => ⟨S128x128, .f32⟩
  | .hbm, ⟨10, _⟩ => ⟨S50000x128, .f32⟩
  | .hbm, ⟨11, _⟩ => ⟨S128x128, .f32⟩
  | .hbm, ⟨12, _⟩ => ⟨S50000x128, .f32⟩
  | .hbm, ⟨13, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]

class Facts₀ : Prop where
  reducesTo_S50000x32x128_S50000x128_d1 : S50000x32x128.ReducesTo [1] S50000x128
  h_S_ : 0 < S_.numel
  bcast_S_S50000x128 : S_.BroadcastsInDim S50000x128 (![] : Fin 0 → Fin S50000x128.rank)
  transposes_S128x128_S128x128_1_0 : S128x128.Transposes [1, 0] S128x128
  dot_S50000x128_S128x128_S50000x128_1_0_0_1_n_n_wf : DotDims.WF S50000x128 S128x128 S50000x128 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.LibSumSplit.lean ====
/-
  A 266-term sum, read as its three consecutive stretches: terms 0..127, 128..255 and 256..265.
  This holds in every commutative additive monoid (only associativity of the ordered sum is used).
-/
import Mathlib

namespace Cert.LibSumSplit

open Finset

/-- A sum over `Fin (m + n)` is the sum of its first `m` terms plus the sum of its last `n` terms,
    with the indices written out as natural numbers below the bound. -/
theorem sum_fin_add {M : Type*} [AddCommMonoid M] (m n : ℕ) (f : Fin (m + n) → M) :
    ∑ k : Fin (m + n), f k
      = ∑ k : Fin m, f ⟨k.val, by omega⟩ + ∑ k : Fin n, f ⟨m + k.val, by omega⟩ := by
  rw [Fin.sum_univ_add]
  rfl

/-- A 266-term sum is the sum of its terms 0..127, plus the sum of its terms 128..255, plus the sum
    of its terms 256..265. -/
theorem sum_fin_266 {M : Type*} [AddCommMonoid M] (f : Fin 266 → M) :
    ∑ k : Fin 266, f k
      = (∑ k : Fin 128, f ⟨k.val, by omega⟩ + ∑ k : Fin 128, f ⟨128 + k.val, by omega⟩)
        + ∑ k : Fin 10, f ⟨256 + k.val, by omega⟩ := by
  have h1 := sum_fin_add (M := M) 256 10 f
  have h2 := sum_fin_add (M := M) 128 128 (fun k : Fin (128 + 128) => f ⟨k.val, by omega⟩)
  rw [h1]
  congr 1
-- ==== Proof.SageSpec.lean ====
/-
  The layer, as one function of its arrays. For `R` rows of 128 features, 32 neighbours per row and a weight of 256
  rows — the first 128 multiply the row's own features, the last 128 the mean of its neighbours' —

      out (r, c) = Σ_{k<128} x (r, k) · w (k, c)  +  Σ_{k<128} mean (r, k) · w (128 + k, c),
      mean (r, k) = (Σ_{n<32} nb (r, n, k)) · 0.03125 .

  Row `r` of the result reads row `r` of `x` and of `nb` only, so a block of rows of the result is the same function of
  the same block of rows of the operands. Beside it, the two regroupings of sums the kernel's tiling needs, in any
  additive commutative monoid: 32 terms as four runs of 8, 256 terms as two runs of 128.
-/
import Idealize.ShloMosaic.PureOps.Ideal
import Idealize.ShloMosaic.Lib.ValueIdx
import proofs.«157545_j7602092114107_2_alg».proof.Proof.LibSumSplit

noncomputable section

open scoped BigOperators

namespace Cert.Sage.Spec

open Idealize.ShloMosaic Idealize.ShloMosaic.ValueIdx

/-- The mean of row `r`'s 32 neighbours at feature `d`: their sum times the float `0.03125`. -/
def neighMean {R : ℕ} (nb : (⟨3, ![R, 32, 128]⟩ : Shape).Idx → EReal) (r : Fin R) (d : Fin 128) : EReal :=
  (∑ n : Fin 32, nb (ix3 r n d)) * Ideal.ofBits .f32 0x3D000000#32

/-- The layer's output at row `r`, column `c`, over the stacked weight `w`. -/
def sageAt {R : ℕ} (x : (⟨2, ![R, 128]⟩ : Shape).Idx → EReal) (nb : (⟨3, ![R, 32, 128]⟩ : Shape).Idx → EReal)
    (w : (⟨2, ![256, 128]⟩ : Shape).Idx → EReal) (r : Fin R) (c : Fin 128) : EReal :=
  ∑ k : Fin 128, x (ix2 r k) * w (ix2 (⟨k.val, by omega⟩ : Fin 256) c)
    + ∑ k : Fin 128, neighMean nb r k * w (ix2 (⟨128 + k.val, by omega⟩ : Fin 256) c)

/-- The layer's output array. -/
def sage {R : ℕ} (x : (⟨2, ![R, 128]⟩ : Shape).Idx → EReal) (nb : (⟨3, ![R, 32, 128]⟩ : Shape).Idx → EReal)
    (w : (⟨2, ![256, 128]⟩ : Shape).Idx → EReal) : (⟨2, ![R, 128]⟩ : Shape).Idx → EReal :=
  fun i => sageAt x nb w (i 0) (i 1)

theorem sage_ix2 {R : ℕ} (x : (⟨2, ![R, 128]⟩ : Shape).Idx → EReal) (nb : (⟨3, ![R, 32, 128]⟩ : Shape).Idx → EReal)
    (w : (⟨2, ![256, 128]⟩ : Shape).Idx → EReal) (r : Fin R) (c : Fin 128) :
    sage x nb w (ix2 r c) = sageAt x nb w r c := rfl

/-- Row `r` of the output depends on row `r` of the operands alone: if two pairs of operands agree on their rows `r`
    and `r'`, the outputs agree at `(r, c)` and `(r', c)`. -/
theorem sageAt_congr {R R' : ℕ} (x : (⟨2, ![R, 128]⟩ : Shape).Idx → EReal) (nb : (⟨3, ![R, 32, 128]⟩ : Shape).Idx → EReal)
    (x' : (⟨2, ![R', 128]⟩ : Shape).Idx → EReal) (nb' : (⟨3, ![R', 32, 128]⟩ : Shape).Idx → EReal)
    (w : (⟨2, ![256, 128]⟩ : Shape).Idx → EReal) (r : Fin R) (r' : Fin R') (c : Fin 128)
    (hx : ∀ k : Fin 128, x (ix2 r k) = x' (ix2 r' k))
    (hnb : ∀ (n : Fin 32) (k : Fin 128), nb (ix3 r n k) = nb' (ix3 r' n k)) :
    sageAt x nb w r c = sageAt x' nb' w r' c := by
  unfold sageAt neighMean
  refine congrArg₂ (· + ·) (Finset.sum_congr rfl fun k _ => by rw [hx k]) (Finset.sum_congr rfl fun k _ => ?_)
  rw [Finset.sum_congr rfl fun n _ => hnb n k]

/-- The stacked weight: the transpose of `wl` over the transpose of `wr` — row `j` below 128 is column `j` of `wl`, row
    `128 + j` is column `j` of `wr`. -/
def stacked (wl wr : (⟨2, ![128, 128]⟩ : Shape).Idx → EReal) : (⟨2, ![256, 128]⟩ : Shape).Idx → EReal :=
  fun j => if h : (j 0).val < 128 then wl (ix2 (j 1) (⟨(j 0).val, h⟩ : Fin 128))
    else wr (ix2 (j 1) (⟨(j 0).val - 128, by have h256 : (j 0).val < 256 := (j 0).isLt; omega⟩ : Fin 128))

theorem stacked_lo (wl wr : (⟨2, ![128, 128]⟩ : Shape).Idx → EReal) (k c : Fin 128) :
    stacked wl wr (ix2 (⟨k.val, by omega⟩ : Fin 256) c) = wl (ix2 c k) := by
  unfold stacked
  rw [dif_pos (show ((ix2 (⟨k.val, by omega⟩ : Fin 256) c) 0).val < 128 from k.isLt)]

theorem stacked_hi (wl wr : (⟨2, ![128, 128]⟩ : Shape).Idx → EReal) (k c : Fin 128) :
    stacked wl wr (ix2 (⟨128 + k.val, by omega⟩ : Fin 256) c) = wr (ix2 c k) := by
  unfold stacked
  rw [dif_neg (show ¬ ((ix2 (⟨128 + k.val, by omega⟩ : Fin 256) c) 0).val < 128 from Nat.not_lt.2 (Nat.le_add_right 128 k.val))]
  refine congrArg wr (congrArg (ix2 c) (Fin.ext ?_))
  show 128 + k.val - 128 = k.val
  omega

/-- Over the stacked weight the layer is the reference's two products: `x · wlᵀ + mean · wrᵀ`. -/
theorem sageAt_stacked {R : ℕ} (x : (⟨2, ![R, 128]⟩ : Shape).Idx → EReal) (nb : (⟨3, ![R, 32, 128]⟩ : Shape).Idx → EReal)
    (wl wr : (⟨2, ![128, 128]⟩ : Shape).Idx → EReal) (r : Fin R) (c : Fin 128) :
    sageAt x nb (stacked wl wr) r c
      = ∑ k : Fin 128, x (ix2 r k) * wl (ix2 c k) + ∑ k : Fin 128, neighMean nb r k * wr (ix2 c k) := by
  unfold sageAt
  refine congrArg₂ (· + ·) (Finset.sum_congr rfl fun k _ => ?_) (Finset.sum_congr rfl fun k _ => ?_)
  · rw [stacked_lo]
  · rw [stacked_hi]

/-- Thirty-two terms are four consecutive runs of eight. -/
theorem sum_four_runs {M : Type*} [AddCommMonoid M] (f : Fin 32 → M) :
    ∑ n : Fin 32, f n
      = ((∑ n : Fin 8, f ⟨n.val, by omega⟩ + ∑ n : Fin 8, f ⟨8 + n.val, by omega⟩)
          + ∑ n : Fin 8, f ⟨16 + n.val, by omega⟩) + ∑ n : Fin 8, f ⟨24 + n.val, by omega⟩ := by
  have h1 := Cert.LibSumSplit.sum_fin_add (M := M) 24 8 f
  have h2 := Cert.LibSumSplit.sum_fin_add (M := M) 16 8 (fun k : Fin (16 + 8) => f ⟨k.val, by omega⟩)
  have h3 := Cert.LibSumSplit.sum_fin_add (M := M) 8 8 (fun k : Fin (8 + 8) => f ⟨k.val, by omega⟩)
  exact h1.trans (congrArg (· + _) (h2.trans (congrArg (· + _) h3)))

/-- Two hundred and fifty-six terms are two consecutive runs of one hundred and twenty-eight. -/
theorem sum_two_halves {M : Type*} [AddCommMonoid M] (f : Fin 256 → M) :
    ∑ j : Fin 256, f j = ∑ k : Fin 128, f ⟨k.val, by omega⟩ + ∑ k : Fin 128, f ⟨128 + k.val, by omega⟩ :=
  Cert.LibSumSplit.sum_fin_add (M := M) 128 128 f

end Cert.Sage.Spec

end
-- ==== Proof.LibPlainDot.lean ====
/-
  A plain matrix product, M×K by K×N, at the ideal values, read at an index as the sum over the contracted coordinate of
  the products of the operands' entries — for the vector unit's `tpu.matmul` into the zero accumulator and for the host's
  `dot_general` alike. The contraction has one axis, of extent K: its index is that one coordinate (`contrE`), the left
  operand's index at (r, c) and k is (r, k), the right operand's is (k, c).
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {M K N : Nat}

/-- The one-axis contraction index of a plain product is its coordinate. -/
def contrE (M K N : Nat) : (DotDims.plain M K N).contr.Idx ≃ Fin K :=
  contrEquiv1 (DotDims.plain M K N) K rfl rfl

theorem contrE_symm_val (k : Fin K) :
    ((contrE M K N).symm k ⟨0, by have h : (DotDims.plain M K N).contr.rank = 1 := rfl; omega⟩ : ℕ) = k.val :=
  contrEquiv1_symm_val (DotDims.plain M K N) K rfl rfl k

/-- The left operand is read at (row of the result, contracted coordinate). -/
theorem lhsIdx_eq (r : Fin M) (c : Fin N) (k : Fin K) :
    (DotDims.plain M K N).lhsIdx (ix2 r c) ((contrE M K N).symm k) = ix2 r k := by
  funext a
  apply Fin.ext
  match a with
  | ⟨0, _⟩ => rfl
  | ⟨1, _⟩ => exact ((DotDims.plain M K N).lhsIdx_val_of_single (cl := 1) rfl (ix2 r c) _).trans (contrE_symm_val k)

/-- The right operand is read at (contracted coordinate, column of the result). -/
theorem rhsIdx_eq (r : Fin M) (c : Fin N) (k : Fin K) :
    (DotDims.plain M K N).rhsIdx (ix2 r c) ((contrE M K N).symm k) = ix2 k c := by
  funext a
  apply Fin.ext
  match a with
  | ⟨0, _⟩ => exact ((DotDims.plain M K N).rhsIdx_val_of_single (cr := 0) rfl (ix2 r c) _).trans (contrE_symm_val k)
  | ⟨1, _⟩ => rfl

/-- The sum over the contraction index of a plain product, re-indexed by the contracted coordinate. -/
theorem sum_contr (f : (⟨2, ![M, K]⟩ : Shape).Idx → EReal) (g : (⟨2, ![K, N]⟩ : Shape).Idx → EReal) (r : Fin M) (c : Fin N) :
    (∑ k : (DotDims.plain M K N).contr.Idx, f ((DotDims.plain M K N).lhsIdx (ix2 r c) k) * g ((DotDims.plain M K N).rhsIdx (ix2 r c) k))
      = ∑ k : Fin K, f (ix2 r k) * g (ix2 k c) := by
  rw [← Equiv.sum_comp (contrE M K N).symm]
  exact Finset.sum_congr rfl fun k _ => by rw [lhsIdx_eq, rhsIdx_eq]

/-- `tpu.matmul` into the zero accumulator, at (r, c). -/
theorem matmul_zero_apply {φ₁ φ₂ : FTy} (prec : Option ContractPrecision)
    (x : FVec Ideal ⟨2, ![M, K]⟩ φ₁) (w : FVec Ideal ⟨2, ![K, N]⟩ φ₂) (r : Fin M) (c : Fin N) :
    FloatOps.matmul (DotDims.plain M K N) prec x w (constant (⟨2, ![M, N]⟩ : Shape) .f32 0x00000000#32) (ix2 r c)
      = ∑ k : Fin K, x (ix2 r k) * w (ix2 k c) :=
  (Ideal.matmul_constant_zero_apply (DotDims.plain M K N) prec x w (ix2 r c)).trans (sum_contr x w r c)

/-- The host's `dot_general`, at (r, c). -/
theorem dotGeneral_apply {φ₁ φ₂ : FTy} (prec : Option ContractPrecision) (sched : HostSchedule)
    (x : FVec Ideal ⟨2, ![M, K]⟩ φ₁) (w : FVec Ideal ⟨2, ![K, N]⟩ φ₂) (r : Fin M) (c : Fin N) :
    FloatOps.dotGeneral (DotDims.plain M K N) prec sched x w (ix2 r c) = ∑ k : Fin K, x (ix2 r k) * w (ix2 k c) :=
  (Ideal.dotGeneral_apply (DotDims.plain M K N) prec sched x w (ix2 r c)).trans (sum_contr x w r c)

end Idealize.ShloMosaic.PlainDot

end
-- ==== Proof.BlockPayload.lean ====
/-
  What the kernel body computes on one block of 1000 rows, as the layer's function of the block: the neighbour axis is
  summed in four runs of eight onto a zero start and scaled by `0.03125`; the row's own features and that mean are laid
  side by side into 256 columns; one product with the 256-row weight into a zero accumulator then sums, over the first
  128 columns, own features times weight rows 0..127 and, over the last 128, the mean times weight rows 128..255.
  Format changes are the identity on the extended reals.
-/
import proofs.«157545_j7602092114107_2_alg».proof.Proof.Gen.KernelIdeal.Skeleton
import proofs.«157545_j7602092114107_2_alg».proof.Proof.SageSpec
import proofs.«157545_j7602092114107_2_alg».proof.Proof.LibPlainDot
import Idealize.ShloMosaic.Lib.Pipeline.Value
import Idealize.ShloMosaic.PureOps.Ideal.Laws

noncomputable section

open scoped BigOperators

namespace Cert.Sage.Kernel

open Cert.KernelIdeal Cert.KernelIdeal.Gen Idealize.ShloMosaic Idealize.ShloMosaic.ValueIdx

/-- One run's sum: the reduction over the eight neighbours of a [1000, 8, 128] piece, at row `p` and feature `k`. -/
theorem run_sum (v : Vec Ideal S1000x8x128 .f32) (p : Fin 1000) (k : Fin 128) :
    multiReduction (F := Ideal) .add [1] S1000x128 v 0x00000000#32 reduces_S1000x8x128_S1000x128 (.inl rfl) rfl (ix2 p k)
      = ∑ n : Fin 8, v (ix3 p n k) := by
  refine (Ideal.multiReduction_add_single v 0x00000000#32 reduces_S1000x8x128_S1000x128 (.inl rfl) rfl (ix2 p k)).trans ?_
  refine Finset.sum_congr rfl fun n _ => congrArg v ?_
  funext a
  apply Fin.ext
  match a with
  | ⟨0, _⟩ => rfl
  | ⟨1, _⟩ => rfl
  | ⟨2, _⟩ => rfl

/-- The block's neighbour mean as the body computes it from the four pieces. -/
def meanOf (v1 v4 v7 v10 : Vec Ideal S1000x8x128 .f32) : FVec Ideal S1000x128 .f32 :=
  mulf
    (addf (addf (addf (addf (broadcast S1000x128 (Scalar.ofBits (F := Ideal) .f32 0x00000000#32))
      (multiReduction .add [1] S1000x128 v1 0x00000000#32 reduces_S1000x8x128_S1000x128 (.inl rfl) rfl))
      (multiReduction .add [1] S1000x128 v4 0x00000000#32 reduces_S1000x8x128_S1000x128 (.inl rfl) rfl))
      (multiReduction .add [1] S1000x128 v7 0x00000000#32 reduces_S1000x8x128_S1000x128 (.inl rfl) rfl))
      (multiReduction .add [1] S1000x128 v10 0x00000000#32 reduces_S1000x8x128_S1000x128 (.inl rfl) rfl))
    (broadcast S1000x128 (Scalar.ofBits (F := Ideal) .f32 0x3D000000#32))

/-- The payload is one product of the side-by-side [own features | mean] with the weight, into zero. -/
theorem payload_unfold (v1 v4 v7 v10 : Vec Ideal S1000x8x128 .f32) (v15 : Vec Ideal S1000x128 .f32) (v19 : Vec Ideal S256x128 .bf16) :
    k0_pay1 (F := Ideal) v1 v4 v7 v10 v15 v19
      = matmul dot_S1000x256_S256x128_S1000x128_1_0_0_1_n_n none
          (concatenate S1000x256 1 [⟨S1000x128, truncf (F := Ideal) .bf16 v15 bitsLt_bf16_f32⟩,
            ⟨S1000x128, truncf (F := Ideal) .bf16 (meanOf v1 v4 v7 v10) bitsLt_bf16_f32⟩] concatenates_S1000x128_S1000x128_S1000x256_d1)
          (shapeCast S256x128 v19 shapeCasts_S256x128_S256x128 : FVec Ideal S256x128 .bf16) (constant S1000x128 .f32 0x00000000#32) := rfl

/-- When the four pieces are the block's neighbours 0..7, 8..15, 16..23 and 24..31, the body's mean is the layer's. -/
theorem meanOf_apply (v1 v4 v7 v10 : Vec Ideal S1000x8x128 .f32) (nbb : Vec Ideal S1000x32x128 .f32)
    (h1 : ∀ (p : Fin 1000) (n : Fin 8) (k : Fin 128), v1 (ix3 p n k) = nbb (ix3 p (⟨n.val, by omega⟩ : Fin 32) k))
    (h4 : ∀ (p : Fin 1000) (n : Fin 8) (k : Fin 128), v4 (ix3 p n k) = nbb (ix3 p (⟨8 + n.val, by omega⟩ : Fin 32) k))
    (h7 : ∀ (p : Fin 1000) (n : Fin 8) (k : Fin 128), v7 (ix3 p n k) = nbb (ix3 p (⟨16 + n.val, by omega⟩ : Fin 32) k))
    (h10 : ∀ (p : Fin 1000) (n : Fin 8) (k : Fin 128), v10 (ix3 p n k) = nbb (ix3 p (⟨24 + n.val, by omega⟩ : Fin 32) k))
    (p : Fin 1000) (k : Fin 128) :
    meanOf v1 v4 v7 v10 (ix2 p k) = Spec.neighMean (R := 1000) nbb p k := by
  unfold meanOf Spec.neighMean
  rw [mulf_apply, addf_apply, addf_apply, addf_apply, addf_apply, run_sum, run_sum, run_sum, run_sum,
    Spec.sum_four_runs (fun n => nbb (ix3 p n k))]
  simp only [broadcast_apply, h1, h4, h7, h10]
  show ((((Ideal.ofBits .f32 0x00000000#32 + _) + _) + _) + _) * _ = _
  rw [Ideal.ofBits_zero_f32, zero_add]
  rfl

/-- THE BLOCK: the body's payload is the layer's function of the block's rows over the staged weight. -/
theorem payload_eq (v1 v4 v7 v10 : Vec Ideal S1000x8x128 .f32) (v15 : Vec Ideal S1000x128 .f32) (v19 : Vec Ideal S256x128 .bf16)
    (nbb : Vec Ideal S1000x32x128 .f32)
    (h1 : ∀ (p : Fin 1000) (n : Fin 8) (k : Fin 128), v1 (ix3 p n k) = nbb (ix3 p (⟨n.val, by omega⟩ : Fin 32) k))
    (h4 : ∀ (p : Fin 1000) (n : Fin 8) (k : Fin 128), v4 (ix3 p n k) = nbb (ix3 p (⟨8 + n.val, by omega⟩ : Fin 32) k))
    (h7 : ∀ (p : Fin 1000) (n : Fin 8) (k : Fin 128), v7 (ix3 p n k) = nbb (ix3 p (⟨16 + n.val, by omega⟩ : Fin 32) k))
    (h10 : ∀ (p : Fin 1000) (n : Fin 8) (k : Fin 128), v10 (ix3 p n k) = nbb (ix3 p (⟨24 + n.val, by omega⟩ : Fin 32) k)) :
    k0_pay1 (F := Ideal) v1 v4 v7 v10 v15 v19 = Spec.sage (R := 1000) v15 nbb v19 := by
  rw [payload_unfold]
  funext j
  obtain ⟨p, q, rfl⟩ : ∃ (p : Fin 1000) (q : Fin 128), j = ix2 p q := ⟨j 0, j 1, eq_ix2 j⟩
  rw [Spec.sage_ix2]
  refine (PlainDot.matmul_zero_apply (M := 1000) (K := 256) (N := 128) none _ _ p q).trans ?_
  refine (Spec.sum_two_halves _).trans ?_
  unfold Spec.sageAt
  refine congrArg₂ (· + ·) (Finset.sum_congr rfl fun k _ => ?_) (Finset.sum_congr rfl fun k _ => ?_)
  · refine congrArg₂ (· * ·) ?_ (congrFun (shapeCast_self v19 _) _)
    exact concatenate_pair_apply_left (s₁ := S1000x128) (s₂ := S1000x128) (1 : Fin 2) _ _ _ (ix2 p (⟨k.val, by omega⟩ : Fin 256)) rfl (ix2 p k)
      (fun b => by match b with | ⟨0, _⟩ => rfl | ⟨1, _⟩ => rfl)
  · refine congrArg₂ (· * ·) ?_ (congrFun (shapeCast_self v19 _) _)
    refine (concatenate_pair_apply_right (s₁ := S1000x128) (s₂ := S1000x128) (1 : Fin 2) _ _ _ (ix2 p (⟨128 + k.val, by omega⟩ : Fin 256)) rfl rfl (ix2 p k)
      (fun b hb => by match b, hb with | ⟨0, _⟩, _ => rfl | ⟨1, _⟩, hb => exact absurd rfl hb)
      (by show k.val + 128 = 128 + k.val; omega)).trans ?_
    exact meanOf_apply v1 v4 v7 v10 nbb h1 h4 h7 h10 p k

end Cert.Sage.Kernel

end
-- ==== Proof.WeightStack.lean ====
/-
  The weight the kernel's third window stages. Before the call the host transposes `W_l` and `W_r`, lays the two
  transposes one over the other along the rows and changes the format — the identity on the extended reals. So the
  array the region finds is the stacked weight: row `a` below 128 at column `q` is `W_l (q, a)`, row `a` from 128 on is
  `W_r (q, a − 128)`.
-/
import proofs.«157545_j7602092114107_2_alg».proof.Proof.Gen.KernelIdeal.Frame
import proofs.«157545_j7602092114107_2_alg».proof.Proof.SageSpec
import Idealize.ShloMosaic.Lib.Pipeline.Value
import Idealize.ShloMosaic.Lib.StableHlo.Run

noncomputable section

namespace Cert.Sage.Kernel

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The third window's array at region entry, as the host operations' term of the two weight arguments. -/
theorem weight_term (c : Dev nD) :
    (V m c main_v3 : S256x128.Idx → EReal)
      = truncf (F := Ideal) .bf16 (concatenate S256x128 0
          [⟨S128x128, transpose S128x128 [1, 0] (m ((c : Thread nD τ).loc main_arg2)) transposes_S128x128_S128x128_1_0⟩,
           ⟨S128x128, transpose S128x128 [1, 0] (m ((c : Thread nD τ).loc main_arg3)) transposes_S128x128_S128x128_1_0⟩]
          concatenates_S128x128_S128x128_S256x128_d0) bitsLt_bf16_f32 := by
  dsimp only [Gen.V, Gen.hostOps0]; after_results

/-- Read index by index, it is the stacked weight of the two arguments. -/
theorem weight_eq (c : Dev nD) :
    (V m c main_v3 : S256x128.Idx → EReal)
      = Spec.stacked (m ((c : Thread nD τ).loc main_arg2)) (m ((c : Thread nD τ).loc main_arg3)) := by
  rw [weight_term]
  funext j
  obtain ⟨a, q, rfl⟩ : ∃ (a : Fin 256) (q : Fin 128), j = ix2 a q := ⟨j 0, j 1, eq_ix2 j⟩
  refine (truncf_apply (ψ := .bf16) _ bitsLt_bf16_f32 (ix2 a q)).trans ?_
  unfold Spec.stacked
  by_cases h : a.val < 128
  · rw [dif_pos (show ((ix2 a q) 0).val < 128 from h)]
    refine (concatenate_pair_apply_left (s₁ := S128x128) (s₂ := S128x128) (0 : Fin 2) _ _ _ (ix2 a q) rfl (ix2 (⟨a.val, h⟩ : Fin 128) q)
      (fun b => by match b with | ⟨0, _⟩ => rfl | ⟨1, _⟩ => rfl)).trans ?_
    exact transpose_apply [1, 0] _ _ (ix2 (⟨a.val, h⟩ : Fin 128) q) (ix2 q (⟨a.val, h⟩ : Fin 128))
      (fun b => match b with | ⟨0, _⟩ => rfl | ⟨1, _⟩ => rfl)
  · rw [dif_neg (show ¬ ((ix2 a q) 0).val < 128 from h)]
    have ha : a.val - 128 < 128 := by have := a.isLt; omega
    refine (concatenate_pair_apply_right (s₁ := S128x128) (s₂ := S128x128) (0 : Fin 2) _ _ _ (ix2 a q) rfl rfl (ix2 (⟨a.val - 128, ha⟩ : Fin 128) q)
      (fun b hb => by match b, hb with | ⟨0, _⟩, hb => exact absurd rfl hb | ⟨1, _⟩, _ => rfl)
      (by show a.val - 128 + 128 = a.val; omega)).trans ?_
    exact transpose_apply [1, 0] _ _ (ix2 (⟨a.val - 128, ha⟩ : Fin 128) q) (ix2 q (⟨a.val - 128, ha⟩ : Fin 128))
      (fun b => match b with | ⟨0, _⟩ => rfl | ⟨1, _⟩ => rfl)

end Cert.Sage.Kernel

end
-- ==== Proof.BlocksToArray.lean ====
/-
  From blocks to the array. Grid point `t` of the 50 stages rows `1000 t … 1000 t + 999` of the features and of the
  neighbours, the whole weight, and writes back rows `1000 t … 1000 t + 999` of the result. The layer's row `r` reads
  row `r` of its operands only, so what point `t` writes back is block `t` of the layer applied to the whole arrays;
  row `r` of the result lies in the block of point `r / 1000`, so the 50 blocks cover the array, which therefore ends
  holding the layer's output.
-/
import proofs.«157545_j7602092114107_2_alg».proof.Proof.Gen.KernelIdeal.Value
import proofs.«157545_j7602092114107_2_alg».proof.Proof.BlockPayload
import proofs.«157545_j7602092114107_2_alg».proof.Proof.WeightStack
import Idealize.ShloMosaic.Lib.Pipeline.Value

noncomputable section

namespace Cert.Sage.Kernel

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero2 : (![0, 0] : Fin 2 → Nat) = fun _ => 0 := funext fun a => by fin_cases a <;> rfl

/-! ## One block -/

/-- The four runs of eight neighbours the body loads, and its two whole loads, make the body's result on a block the
    layer's function of the block. -/
theorem block_out (x0 : Vec Ideal S1000x128 .f32) (x1 : Vec Ideal S1000x32x128 .f32) (x2 : Vec Ideal S256x128 .bf16) :
    out0_3 x0 x1 x2 = Spec.sage (R := 1000) x0 x1 x2 := by
  unfold out0_3
  rw [View.canon_unit_zero zero2]
  simp only [View.ld_unit_zero (S := S1000x128) zero2, View.ld_unit_zero (S := S256x128) zero2]
  refine payload_eq _ _ _ _ x0 x2 x1 (fun p n k => congrArg x1 ?_) (fun p n k => congrArg x1 ?_)
    (fun p n k => congrArg x1 ?_) (fun p n k => congrArg x1 ?_)
  all_goals
    funext a
    apply Fin.ext
    match a with
    | ⟨0, _⟩ => show 0 + 1 * p.val = p.val; omega
    | ⟨1, _⟩ => first
      | (show 0 + 1 * n.val = n.val; omega)
      | (show 8 + 1 * n.val = 8 + n.val; omega)
      | (show 16 + 1 * n.val = 16 + n.val; omega)
      | (show 24 + 1 * n.val = 24 + n.val; omega)
    | ⟨2, _⟩ => show 0 + 1 * k.val = k.val; omega

/-- The layer on a block of rows is the block of the layer on the whole arrays: rows `T·1000 + p` of the whole
    operands are rows `p` of the block's. -/
theorem block_of_whole (X : S50000x128.Idx → EReal) (NB : S50000x32x128.Idx → EReal) (W : S256x128.Idx → EReal)
    (xb : Vec Ideal S1000x128 .f32) (nbb : Vec Ideal S1000x32x128 .f32) (wb : Vec Ideal S256x128 .bf16) (T : ℕ)
    (hx : ∀ (p : Fin 1000) (k : Fin 128) (r : Fin 50000), r.val = T * 1000 + p.val → xb (ix2 p k) = X (ix2 r k))
    (hnb : ∀ (p : Fin 1000) (n : Fin 32) (k : Fin 128) (r : Fin 50000), r.val = T * 1000 + p.val →
      nbb (ix3 p n k) = NB (ix3 r n k))
    (hw : ∀ (a : Fin 256) (q : Fin 128), wb (ix2 a q) = W (ix2 a q))
    (y : S1000x128.Idx) (i : S50000x128.Idx) (hi0 : (i 0).val = T * 1000 + (y 0).val) (hi1 : (i 1).val = (y 1).val) :
    Spec.sage (R := 1000) xb nbb wb y = Spec.sage (R := 50000) X NB W i := by
  obtain ⟨p, q, rfl⟩ : ∃ (p : Fin 1000) (q : Fin 128), y = ix2 p q := ⟨y 0, y 1, eq_ix2 y⟩
  obtain ⟨r, q', rfl⟩ : ∃ (r : Fin 50000) (q' : Fin 128), i = ix2 r q' := ⟨i 0, i 1, eq_ix2 i⟩
  obtain rfl : q' = q := Fin.ext hi1
  have hW : (wb : S256x128.Idx → EReal) = W := funext fun j => by rw [eq_ix2 j]; exact hw _ _
  rw [Spec.sage_ix2, Spec.sage_ix2, hW]
  exact Spec.sageAt_congr xb nbb X NB W p r q' (fun k => hx p k r hi0) (fun n k => hnb p n k r hi0)

/-! ## The grid -/

/-- The printed index maps, decided over the 50 points: the features', the neighbours' and the result's block index
    is the point along the rows and zero elsewhere; the weight's is zero. -/
theorem idx_facts : ∀ t : Fin cfg0.N, win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The features' block at point `t`, row `p`, is row `1000 t + p` of the features. -/
theorem own_block (c : Dev nD) (t : Fin cfg0.N) (p : Fin 1000) (k : Fin 128) (r : Fin 50000) (hr : r.val = t.val * 1000 + p.val) :
    (iblk m c 0 t : Vec Ideal S1000x128 .f32) (ix2 p k) = (V m c main_arg0 : S50000x128.Idx → EReal) (ix2 r k) := by
  obtain ⟨e0, e1, -⟩ := idx_facts t
  show (V m c main_arg0 : S50000x128.Idx → EReal) (((cfg0.win 0).blk t).view.emb (ix2 p k)) = _
  refine congrArg (V m c main_arg0 : S50000x128.Idx → EReal) (funext fun a => Fin.ext ?_)
  match a with
  | ⟨0, _⟩ => show win0_0.index t (0 : Fin 2) * 1000 + 1 * p.val = r.val; rw [e0, hr]; omega
  | ⟨1, _⟩ => show win0_0.index t (1 : Fin 2) * 128 + 1 * k.val = k.val; rw [e1]; omega

/-- The neighbours' block at point `t`, row `p`, is row `1000 t + p` of the neighbours. -/
theorem neigh_block (c : Dev nD) (t : Fin cfg0.N) (p : Fin 1000) (n : Fin 32) (k : Fin 128) (r : Fin 50000)
    (hr : r.val = t.val * 1000 + p.val) :
    (iblk m c 1 t : Vec Ideal S1000x32x128 .f32) (ix3 p n k) = (V m c main_arg1 : S50000x32x128.Idx → EReal) (ix3 r n k) := by
  obtain ⟨-, -, e0, e1, e2, -⟩ := idx_facts t
  show (V m c main_arg1 : S50000x32x128.Idx → EReal) (((cfg0.win 1).blk t).view.emb (ix3 p n k)) = _
  refine congrArg (V m c main_arg1 : S50000x32x128.Idx → EReal) (funext fun a => Fin.ext ?_)
  match a with
  | ⟨0, _⟩ => show win0_1.index t (0 : Fin 3) * 1000 + 1 * p.val = r.val; rw [e0, hr]; omega
  | ⟨1, _⟩ => show win0_1.index t (1 : Fin 3) * 32 + 1 * n.val = n.val; rw [e1]; omega
  | ⟨2, _⟩ => show win0_1.index t (2 : Fin 3) * 128 + 1 * k.val = k.val; rw [e2]; omega

/-- The weight's block at every point is the whole weight. -/
theorem weight_block (c : Dev nD) (t : Fin cfg0.N) (a : Fin 256) (q : Fin 128) :
    (iblk m c 2 t : Vec Ideal S256x128 .bf16) (ix2 a q) = (V m c main_v3 : S256x128.Idx → EReal) (ix2 a q) := by
  obtain ⟨-, -, -, -, -, e0, e1, -⟩ := idx_facts t
  show (V m c main_v3 : S256x128.Idx → EReal) (((cfg0.win 2).blk t).view.emb (ix2 a q)) = _
  refine congrArg (V m c main_v3 : S256x128.Idx → EReal) (funext fun b => Fin.ext ?_)
  match b with
  | ⟨0, _⟩ => show win0_2.index t (0 : Fin 2) * 256 + 1 * a.val = a.val; rw [e0]; omega
  | ⟨1, _⟩ => show win0_2.index t (1 : Fin 2) * 128 + 1 * q.val = q.val; rw [e1]; omega

/-! ## The array -/

/-- The layer applied to the arrays as the region finds them. -/
abbrev whole (c : Dev nD) : S50000x128.Idx → EReal :=
  Spec.sage (R := 50000) (V m c main_arg0) (V m c main_arg1) (V m c main_v3)

/-- What point `t` writes back is block `t` of the layer's output on the whole arrays. -/
theorem flushed_eq (c : Dev nD) (t : Fin cfg0.N) :
    (dats m 0 c).flushed 3 t = ((cfg0.win 3).blk t).view.read (Elt Ideal) (whole m c) := by
  rw [Cert.KernelIdeal.Value.flushed3]
  refine (congrArg ((cfg0.win 3).cut (grid0.coords t)) (block_out (iblk m c 0 t) (iblk m c 1 t) (iblk m c 2 t))).trans ?_
  obtain ⟨-, -, -, -, -, -, -, e0, e1⟩ := idx_facts t
  funext y
  show Spec.sage (R := 1000) (iblk m c 0 t) (iblk m c 1 t) (iblk m c 2 t) y = whole m c (((cfg0.win 3).blk t).view.emb y)
  refine block_of_whole (V m c main_arg0) (V m c main_arg1) (V m c main_v3) (iblk m c 0 t) (iblk m c 1 t) (iblk m c 2 t) t.val
    (own_block m c t) (neigh_block m c t) (weight_block m c t) y _ ?_ ?_
  · show win0_3.index t (0 : Fin 2) * 1000 + 1 * (y 0).val = t.val * 1000 + (y 0).val; rw [e0]; omega
  · show win0_3.index t (1 : Fin 2) * 128 + 1 * (y 1).val = (y 1).val; rw [e1]; omega

/-- An index of the result is in point `t`'s block iff each coordinate is in the block's range on its axis. -/
theorem mem_blk (t : Fin cfg0.N) (i : S50000x128.Idx) :
    i ∈ ((cfg0.win 3).blk t).view.set ↔ ∀ a : Fin 2, win0_3.index t a * S1000x128.size a ≤ (i a).val ∧ (i a).val < win0_3.index t a * S1000x128.size a + S1000x128.size a := by
  show i ∈ ((View.whole main_v4).slice (win0_3.rect t)).set ↔ _
  rw [View.set_slice_whole, Rect.mem_set_unit]
  exact Iff.rfl

/-- Row `r` of the result is in the block of point `r / 1000`. -/
theorem covered (i : S50000x128.Idx) : ∃ t : Fin cfg0.N, (cfg0.win 3).flush t = true ∧ i ∈ ((cfg0.win 3).blk t).view.set := by
  have hN : cfg0.N = 50 := N_0
  have hi0 : (i 0).val < 50000 := (i 0).isLt
  have hi1 : (i 1).val < 128 := (i 1).isLt
  let t : Fin cfg0.N := ⟨(i 0).val / 1000, by rw [hN]; omega⟩
  have ht : t.val = (i 0).val / 1000 := rfl
  obtain ⟨-, -, -, -, -, -, -, e0, e1⟩ := idx_facts t
  refine ⟨t, flush0_3 t, ?_⟩
  rw [mem_blk]
  intro a
  match a with
  | ⟨0, _⟩ => show win0_3.index t (0 : Fin 2) * 1000 ≤ (i 0).val ∧ (i 0).val < win0_3.index t (0 : Fin 2) * 1000 + 1000; rw [e0, ht]; omega
  | ⟨1, _⟩ => show win0_3.index t (1 : Fin 2) * 128 ≤ (i 1).val ∧ (i 1).val < win0_3.index t (1 : Fin 2) * 128 + 128; rw [e1]; omega

/-- The result array after the run is the layer's output on the arrays the region found. -/
theorem final (c : Dev nD) : (dats m 0 c).arrAt 3 cfg0.N = whole m c :=
  (dats m 0 c).arrAt_eq_of_cover 3 (whole m c) (fun t _ => flushed_eq m c t) covered

/-- The kernel's run: the result array ends at the layer's output of the four arguments (the weight the stack of
    the two transposes), the arguments unchanged. -/
theorem run : θ_run defs (onTc (τ := τ) (main (F := Ideal))) ⟨m, fun _ => 0, ρ⟩ fun r => ∀ c : Dev nD,
      r.2.mem ((c : Thread nD τ).loc main_v4)
        = Spec.sage (R := 50000) (m ((c : Thread nD τ).loc main_arg0)) (m ((c : Thread nD τ).loc main_arg1))
            (Spec.stacked (m ((c : Thread nD τ).loc main_arg2)) (m ((c : Thread nD τ).loc main_arg3)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((final m c).trans (by
      unfold whole
      rw [V_main_arg0, V_main_arg1, weight_eq])), (h c).2⟩)
    (Cert.KernelIdeal.Value.run_blocks m ρ)

end Cert.Sage.Kernel

end
-- ==== Proof.Consts.lean ====
/-
  The two float literals on which the kernel and the reference differ, as the extended reals their bit patterns
  denote: the reference divides the neighbour sum by `32.0`, the kernel multiplies it by `0.03125`. Both are
  exact binary values, `32` and `1/32`, so the quotient and the product are one number.
-/
import Idealize.ShloMosaic.PureOps.Ideal

noncomputable section

namespace Cert.Sage.Consts

open Idealize.ShloMosaic

/-- The pattern of `32.0` (exponent 5, empty fraction) denotes the real `32`. -/
theorem ofBits_thirtyTwo : Ideal.ofBits .f32 0x42000000#32 = ((32 : ℝ) : EReal) := by
  simp [Ideal.ofBits, Ideal.ieee, -EReal.coe_mul]; norm_num

/-- The pattern of `0.03125` (exponent -5, empty fraction) denotes the real `1/32`. -/
theorem ofBits_invThirtyTwo : Ideal.ofBits .f32 0x3D000000#32 = ((1 / 32 : ℝ) : EReal) := by
  simp [Ideal.ofBits, Ideal.ieee, -EReal.coe_mul]; norm_num

/-- Dividing by `32.0` is multiplying by `0.03125`, on every extended real, the infinities included. -/
theorem div_thirtyTwo (x : EReal) :
    Ideal.div x (Ideal.ofBits .f32 0x42000000#32) = x * Ideal.ofBits .f32 0x3D000000#32 := by
  rw [ofBits_thirtyTwo, ofBits_invThirtyTwo, Ideal.div_coe (by norm_num : (32 : ℝ) ≠ 0)]

end Cert.Sage.Consts

end
-- ==== Proof.RefIsSage.lean ====
/-
  The reference, read at an index, is the layer's function over the stacked weight: its two `dot_general`s are the two
  sums over the 128 features — the first of the row's own features against column `c` of `W_lᵀ`, the second of the
  neighbour mean against column `c` of `W_rᵀ` —, its mean is the neighbour sum from the initial value `0` divided by
  `32.0`, and that quotient is the product with `0.03125` on every extended real.
-/
import proofs.«157545_j7602092114107_2_alg».proof.Proof.Gen.ReferenceIdeal.Read
import proofs.«157545_j7602092114107_2_alg».proof.Proof.SageSpec
import proofs.«157545_j7602092114107_2_alg».proof.Proof.Consts
import Idealize.ShloMosaic.PureOps.Ideal.Laws

noncomputable section

open scoped BigOperators

namespace Cert.Sage.Ref

open Cert.ReferenceIdeal Cert.ReferenceIdeal.Read Idealize.ShloMosaic Idealize.ShloMosaic.ValueIdx

/-- The first product's left operand at `(r, c)` and `k` is `x (r, k)`. -/
theorem own_left (r : Fin 50000) (c k : Fin 128) : lidx_main_v4 (ix2 r c) k = ix2 r k :=
  funext fun a => Fin.ext (by match a with | ⟨0, _⟩ => rfl | ⟨1, _⟩ => rfl)

/-- Its right operand, the transposed `W_l`, at `(k, c)` is `W_l (c, k)`. -/
theorem own_right (r : Fin 50000) (c k : Fin 128) : idx_main_v3 (ridx_main_v4 (ix2 r c) k) = ix2 c k :=
  funext fun a => Fin.ext (by match a with | ⟨0, _⟩ => rfl | ⟨1, _⟩ => rfl)

/-- The second product's left operand at `(r, c)` and `k` is the mean at `(r, k)`, which sums `nb (r, n, k)` over `n`. -/
theorem mean_left (r : Fin 50000) (c k : Fin 128) (n : Fin 32) :
    idx_main_v0 (lidx_main_v6 (ix2 r c) k) n = ix3 r n k :=
  funext fun a => Fin.ext (by match a with | ⟨0, _⟩ => rfl | ⟨1, _⟩ => rfl | ⟨2, _⟩ => rfl)

/-- Its right operand, the transposed `W_r`, at `(k, c)` is `W_r (c, k)`. -/
theorem mean_right (r : Fin 50000) (c k : Fin 128) : idx_main_v5 (ridx_main_v6 (ix2 r c) k) = ix2 c k :=
  funext fun a => Fin.ext (by match a with | ⟨0, _⟩ => rfl | ⟨1, _⟩ => rfl)

/-- The reference's result is the layer over the stacked weight. -/
theorem ref_eq (x0 : (⟨2, ![50000, 128]⟩ : Shape).Idx → EReal) (x1 : (⟨3, ![50000, 32, 128]⟩ : Shape).Idx → EReal)
    (x2 x3 : (⟨2, ![128, 128]⟩ : Shape).Idx → EReal) :
    val_main_v7 (F := Ideal) x0 x1 x2 x3 = Spec.sage (R := 50000) x0 x1 (Spec.stacked x2 x3) := by
  funext i
  obtain ⟨r, c, rfl⟩ : ∃ (r : Fin 50000) (c : Fin 128), i = ix2 r c := ⟨i 0, i 1, eq_ix2 i⟩
  rw [Spec.sage_ix2, Spec.sageAt_stacked, val_main_v7_apply, val_main_v4_apply, val_main_v6_apply]
  refine congrArg₂ (· + ·) (Finset.sum_congr rfl fun k _ => ?_) (Finset.sum_congr rfl fun k _ => ?_)
  · rw [val_main_v3_apply, own_left, own_right]
  · rw [val_main_v5_apply, mean_right, val_main_v2_apply, val_main_v0_apply, val_main_v1_apply,
      val_main_cst_0_apply, val_main_cst_apply]
    simp only [Ideal.hostDivf_def, Ideal.ofBits_def, Ideal.ofBits_zero_f32, zero_add, mean_left]
    rw [Consts.div_thirtyTwo]
    rfl

end Cert.Sage.Ref

end
-- ==== Proof.lean ====
/-
  The GraphSAGE mean aggregator, kernel against reference, over the extended reals:

      out = x · W_lᵀ + mean_n(neigh) · W_rᵀ .

  The kernel tiles the 50000 rows into 50 blocks of 1000. On a block it sums the 32 neighbours in four runs of eight
  from a zero start, multiplies by `0.03125`, lays the row's own features and that mean side by side into 256 columns
  and multiplies once by the 256-row weight the host stacked from `W_lᵀ` over `W_rᵀ`. The reference sums the 32
  neighbours at once from the initial value zero, divides by `32.0`, and adds two products with the transposed
  weights. The two are one function of the arguments: a sum of 32 terms is its four runs of eight and a sum of 256
  terms its two halves in any additive commutative monoid (the extended reals are one, so no finiteness is used);
  `0 + s = s`; and dividing by `32` is multiplying by `1/32` on every extended real. A change of float format is the
  identity there. Each row of the result depends on the same row of the operands only, so the 50 written-back blocks
  are the blocks of the layer's output on the whole arrays, and they cover it.

  The three frames are the programs' runs with the results dropped; the idealization rewrote nothing, so it is
  preserved trivially.
-/
import proofs.«157545_j7602092114107_2_alg».proof.Defs
import proofs.«157545_j7602092114107_2_alg».proof.Proof.Gen.Kernel
import proofs.«157545_j7602092114107_2_alg».proof.Proof.Gen.Kernel.Skeleton
import proofs.«157545_j7602092114107_2_alg».proof.Proof.Gen.Kernel.Launch
import proofs.«157545_j7602092114107_2_alg».proof.Proof.Gen.Kernel.Points
import proofs.«157545_j7602092114107_2_alg».proof.Proof.Gen.Kernel.Frame
import proofs.«157545_j7602092114107_2_alg».proof.Proof.Gen.KernelIdeal
import proofs.«157545_j7602092114107_2_alg».proof.Proof.Gen.KernelIdeal.Skeleton
import proofs.«157545_j7602092114107_2_alg».proof.Proof.Gen.KernelIdeal.Launch
import proofs.«157545_j7602092114107_2_alg».proof.Proof.Gen.KernelIdeal.Points
import proofs.«157545_j7602092114107_2_alg».proof.Proof.Gen.KernelIdeal.Frame
import proofs.«157545_j7602092114107_2_alg».proof.Proof.Gen.ReferenceIdeal
import proofs.«157545_j7602092114107_2_alg».proof.Proof.Gen.KernelIdeal.Value
import proofs.«157545_j7602092114107_2_alg».proof.Proof.Gen.ReferenceIdeal.Run
import proofs.«157545_j7602092114107_2_alg».proof.Proof.Gen.ReferenceIdeal.Read
import proofs.«157545_j7602092114107_2_alg».proof.Proof.Gen.Pre_finite_inputs
import proofs.«157545_j7602092114107_2_alg».proof.Proof.BlocksToArray
import proofs.«157545_j7602092114107_2_alg».proof.Proof.RefIsSage
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- And the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the four arguments both programs end with the layer's output of those arguments:
    the kernel's result array by its blocks, the reference's by its operations read at an index. -/
theorem algebraic : Cert.algebraic_KernelIdeal_ReferenceIdeal := by
  intro m ρ m' ρ' _ hagree
  refine ⟨_, Cert.Sage.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.Sage.Ref.ref_eq, (hagree c).1, (hagree c).2.1, (hagree c).2.2.1,
    (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
